-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S1024x2048 : Shape := ⟨2, ![1024, 2048]⟩
abbrev S512x2048 : Shape := ⟨2, ![512, 2048]⟩
abbrev S512 : Shape := ⟨1, ![512]⟩
abbrev S1024x512 : Shape := ⟨2, ![1024, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S2048.size a
  hwx0_2 : ∀ i : grid0.Coords, EltTy.bits .f32 = 32 ∨ (Rect.block (s := S2048) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x2048.size a
  hwx0_3 : ∀ i : grid0.Coords, EltTy.bits .f32 = 32 ∨ (Rect.block (s := S4096x2048) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.Affine.lean ====
/-
  The function both programs compute: the affine map y = x·Wᵀ + b over the extended reals, for
  x : [4096, 2048], W : [2048, 2048], b : [2048].  Entry (r, o) of y is the inner product of row r of x
  with row o of W (a sum over the 2048 shared coordinates), plus b o.  No law of the extended reals is
  needed to compare the two programs: each of them forms exactly this sum of products and then adds b o.
-/
import Idealize.ShloMosaic.PureOps.Ideal
import Idealize.ShloMosaic.Lib.ValueIdx

noncomputable section

open scoped BigOperators

namespace Cert.Affine

open Idealize.ShloMosaic Idealize.ShloMosaic.ValueIdx

/-- One entry of the result: row `r` of `x` against row `o` of `w`, summed over the shared coordinate, plus `b o`. -/
def entry (x : (⟨2, ![4096, 2048]⟩ : Shape).Idx → EReal) (w : (⟨2, ![2048, 2048]⟩ : Shape).Idx → EReal)
    (b : (⟨1, ![2048]⟩ : Shape).Idx → EReal) (r : Fin 4096) (o : Fin 2048) : EReal :=
  (∑ k : Fin 2048, x (ix2 r k) * w (ix2 o k)) + b (ix1 o)

/-- The whole result array, index by index. -/
def affine (x : (⟨2, ![4096, 2048]⟩ : Shape).Idx → EReal) (w : (⟨2, ![2048, 2048]⟩ : Shape).Idx → EReal)
    (b : (⟨1, ![2048]⟩ : Shape).Idx → EReal) : (⟨2, ![4096, 2048]⟩ : Shape).Idx → EReal :=
  fun i => entry x w b (i 0) (i 1)

end Cert.Affine

end
-- ==== Proof.RefAffine.lean ====
/-
  The reference's result, read at an index, is the affine map of `Affine.lean`: its `dot_general` contracts the
  second axis of x with the second axis of W — entry (r, o) is the sum over k of x[r, k]·W[o, k] — and the two
  broadcasts place b o on every row before the final addition.
-/
import proofs.«142299_j21251498180715_1_alg».proof.Proof.Gen.ReferenceIdeal.Read
import proofs.«142299_j21251498180715_1_alg».proof.Proof.Affine

noncomputable section

open scoped BigOperators

namespace Cert.Affine.Ref

open Cert.ReferenceIdeal Cert.ReferenceIdeal.Read Idealize.ShloMosaic Idealize.ShloMosaic.ValueIdx

/-- The reference's last stage is `affine` of its three arguments: at index (r, o) the contraction's operand
    indices are (r, k) and (o, k), and the twice-broadcast bias is read at o. -/
theorem stage_eq (x : (⟨S4096x2048, .f32⟩ : BufTy).Contents (Elt Ideal)) (w : (⟨S2048x2048, .f32⟩ : BufTy).Contents (Elt Ideal))
    (b : (⟨S2048, .f32⟩ : BufTy).Contents (Elt Ideal)) :
    val_main_v3 (F := Ideal) x w b = Cert.Affine.affine x w b := by
  funext i
  have el : ∀ k : Fin 2048, lidx_main_v0 i k = ix2 (i 0) k := fun k =>
    funext fun a => Fin.ext (by match a with | ⟨0, _⟩ => rfl | ⟨1, _⟩ => rfl)
  have er : ∀ k : Fin 2048, ridx_main_v0 i k = ix2 (i 1) k := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v3_apply, val_main_v0_apply, val_main_v2_apply, val_main_v1_apply]
  simp only [el, er, eb]
  rfl

end Cert.Affine.Ref

end
-- ==== Proof.BlockEntry.lean ====
/-
  What the kernel body computes on one tile, read at an entry.  The body takes a [1024, 2048] block of x, a
  [512, 2048] block of W and a [512] block of b; it multiplies the first by the transpose of the second into a zero
  accumulator and adds the bias block along every row.  Over the extended reals the two narrowings to bf16 are the
  identity, the product into the zero accumulator is the plain sum of products over the 2048 shared coordinates, and
  the bias — recast as one row and repeated down the rows — is read at the column.  So entry (p, q) of the tile is
  the sum over k of xblock[p, k]·wblock[q, k], plus bblock[q].
-/
import proofs.«142299_j21251498180715_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Affine.Body

open Cert.KernelIdeal Cert.KernelIdeal.Gen Idealize.ShloMosaic Idealize.ShloMosaic.ValueIdx

/-! ## The tile product's operand indices -/

/-- The left operand's row is the output's row. -/
theorem lhs_row (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide),
    dif_pos (show (0 : Fin S1024x2048.rank) ∈ dot_S1024x2048_S512x2048_S1024x512_1_1_0_0_n_n.lhsNonContracting by decide)]
  rfl

/-- The left operand's column is the summation coordinate. -/
theorem lhs_col (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q

/-- The right operand's row is the output's column: the second block is used transposed. -/
theorem rhs_row (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide),
    dif_pos (show (0 : Fin S512x2048.rank) ∈ dot_S1024x2048_S512x2048_S1024x512_1_1_0_0_n_n.rhsNonContracting by decide)]
  rfl

/-- The right operand's column is the summation coordinate. -/
theorem rhs_col (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-! ## The tile product at an entry -/

/-- The product of a [1024, 2048] block with the transpose of a [512, 2048] block, into a zero accumulator, at
    entry (p, q): the sum over the shared coordinate of the two rows' products. -/
theorem product_entry (a : FVec Ideal S1024x2048 .bf16) (w : FVec Ideal S512x2048 .bf16) (p : Fin 1024) (q : Fin 512) :
    matmul dot_S1024x2048_S512x2048_S1024x512_1_1_0_0_n_n none a w (constant (F := Ideal) S1024x512 .f32 0x00000000#32) (ix2 p q)
      = ∑ k : Fin 2048, a (ix2 p k) * w (ix2 q k) := by
  show FloatOps.matmul dot_S1024x2048_S512x2048_S1024x512_1_1_0_0_n_n none a w (constant (F := Ideal) S1024x512 .f32 0x00000000#32) (ix2 p q) = _
  rw [Ideal.matmul_constant_zero_apply,
    ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q)
      ((contrEquiv1 dot_S1024x2048_S512x2048_S1024x512_1_1_0_0_n_n 2048 rfl rfl).symm k) = ix2 p k :=
    funext fun c => Fin.ext (by
      match c with
      | ⟨0, _⟩ => exact lhs_row _ _
      | ⟨1, _⟩ => exact (lhs_col _ _).trans hk)
  have er : dot_S1024x2048_S512x2048_S1024x512_1_1_0_0_n_n.rhsIdx (ix2 p q)
      ((contrEquiv1 dot_S1024x2048_S512x2048_S1024x512_1_1_0_0_n_n 2048 rfl rfl).symm k) = ix2 q k :=
    funext fun c => Fin.ext (by
      match c with
      | ⟨0, _⟩ => exact rhs_row _ _
      | ⟨1, _⟩ => exact (rhs_col _ _).trans hk)
  rw [el, er]

/-! ## The bias along the rows -/

/-- A [512] vector recast as the one row of a [1, 512] array reads, at (u, q), the vector at q. -/
theorem row_of_vector {α : Type} (v : S512.Idx → α) (h : S512.ShapeCasts S1x512) (u : Fin 1) (q : Fin 512) :
    shapeCast S1x512 v h (ix2 u q) = v (ix1 q) :=
  shapeCast_apply v h _ _ (by
    have hu : u.val = 0 := by omega
    rw [Shape.rowMajor_val_one, Shape.rowMajor_val_two]
    show q.val = u.val * 512 + q.val
    rw [hu, Nat.zero_mul, Nat.zero_add])

/-- The bias block repeated down the 1024 rows reads, at (p, q), the block at q. -/
theorem bias_entry {α : Type} (v : S512.Idx → α) (h : S512.ShapeCasts S1x512) (h' : S1x512.Broadcasts S1024x512)
    (p : Fin 1024) (q : Fin 512) :
    broadcastTo S1024x512 (shapeCast S1x512 v h) h' (ix2 p q) = v (ix1 q) :=
  (broadcastTo_1b_ab_apply (shapeCast S1x512 v h) h' p q).trans (row_of_vector v h 0 q)

/-! ## The body's stored value at an entry -/

/-- Entry (p, q) of what the body stores: the two blocks' row products summed, plus the bias block at q. -/
theorem tile_entry (x0 : Vec Ideal S1024x2048 .f32) (x1 : Vec Ideal S512x2048 .f32) (x2 : Vec Ideal S512 .f32)
    (p : Fin 1024) (q : Fin 512) :
    k0_pay1 (F := Ideal) x0 x1 x2 (ix2 p q) = (∑ k : Fin 2048, x0 (ix2 p k) * x1 (ix2 q k)) + x2 (ix1 q) := by
  unfold k0_pay1
  show matmul dot_S1024x2048_S512x2048_S1024x512_1_1_0_0_n_n none (truncf .bf16 x0 bitsLt_bf16_f32) (truncf .bf16 x1 bitsLt_bf16_f32)
      (constant (F := Ideal) S1024x512 .f32 0x00000000#32) (ix2 p q)
    + broadcastTo S1024x512 (shapeCast S1x512 x2 shapeCasts_S512_S1x512) broadcasts_S1x512_S1024x512 (ix2 p q) = _
  rw [product_entry, bias_entry]
  rfl

end Cert.Affine.Body

end
-- ==== Proof.TileArray.lean ====
/-
  From tiles to the whole array.  The grid has 4 × 4 points; point (i, j) reads rows 1024·i … 1024·i + 1023 of x,
  rows 512·j … 512·j + 511 of W and entries 512·j … 512·j + 511 of b, and writes the [1024, 512] tile of the result
  at rows 1024·i …, columns 512·j ….  Entry (p, q) of that tile is the sum over k of x[1024·i + p, k]·W[512·j + q, k]
  plus b[512·j + q], which is entry (1024·i + p, 512·j + q) of the affine map of the whole arrays.  The sixteen tiles
  cover the result, so after the run the result array is the affine map of the arguments.
-/
import proofs.«142299_j21251498180715_1_alg».proof.Proof.Gen.KernelIdeal.Value
import proofs.«142299_j21251498180715_1_alg».proof.Proof.Affine
import proofs.«142299_j21251498180715_1_alg».proof.Proof.BlockEntry

noncomputable section

open scoped BigOperators

namespace Cert.Affine.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-! ## The grid -/

/-- At every grid point the x window sits on the output tile's row of tiles, the W and b windows on its column of
    tiles, none of the inputs moves along the shared axis, and the tile's two indices are at most 3. -/
theorem windows_at : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2)
    ∧ win0_3.index t (0 : Fin 2) ≤ 3 ∧ win0_3.index t (1 : Fin 2) ≤ 3 :=
  (by decide +kernel : ∀ t : Fin grid0.N, _)

/-- Every one of the 4 × 4 tiles is some grid point's. -/
theorem point_of_tile : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-! ## The input blocks as parts of the argument arrays -/

/-- The x block at a point: its row p is row (tile row)·1024 + p of x. -/
theorem xblock_apply (c : Dev nD) (t : Fin cfg0.N) (y : S1024x2048.Idx) (i : S4096x2048.Idx)
    (h0 : (i 0).val = win0_3.index t (0 : Fin 2) * 1024 + (y 0).val) (h1 : (i 1).val = (y 1).val) :
    (iblk m c 0 t : Vec Ideal S1024x2048 .f32) y = (V m c main_arg0 : S4096x2048.Idx → EReal) i := by
  obtain ⟨e0, e1, -, -, -, -, -⟩ := windows_at t
  unfold iblk
  rw [View.read_apply]
  show V m c main_arg0 _ = V m c main_arg0 _
  congr 1
  funext a
  apply Fin.ext
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The W block at a point: its row q is row (tile column)·512 + q of W. -/
theorem wblock_apply (c : Dev nD) (t : Fin cfg0.N) (y : S512x2048.Idx) (i : S2048x2048.Idx)
    (h0 : (i 0).val = win0_3.index t (1 : Fin 2) * 512 + (y 0).val) (h1 : (i 1).val = (y 1).val) :
    (iblk m c 1 t : Vec Ideal S512x2048 .f32) y = (V m c main_arg1 : S2048x2048.Idx → EReal) i := by
  obtain ⟨-, -, e0, e1, -, -, -⟩ := windows_at t
  unfold iblk
  rw [View.read_apply]
  show V m c main_arg1 _ = V m c main_arg1 _
  congr 1
  funext a
  apply Fin.ext
  match a with
  | ⟨0, _⟩ => show win0_1.index t (0 : Fin 2) * 512 + 1 * (y 0).val = (i 0).val; omega
  | ⟨1, _⟩ => show win0_1.index t (1 : Fin 2) * 2048 + 1 * (y 1).val = (i 1).val; omega

/-- The b block at a point: its entry q is entry (tile column)·512 + q of b. -/
theorem bblock_apply (c : Dev nD) (t : Fin cfg0.N) (y : S512.Idx) (i : S2048.Idx)
    (h0 : (i 0).val = win0_3.index t (1 : Fin 2) * 512 + (y 0).val) :
    (iblk m c 2 t : Vec Ideal S512 .f32) y = (V m c main_arg2 : S2048.Idx → EReal) i := by
  obtain ⟨-, -, -, -, e0, -, -⟩ := windows_at t
  unfold iblk
  rw [View.read_apply]
  show V m c main_arg2 _ = V m c main_arg2 _
  congr 1
  funext a
  apply Fin.ext
  match a with
  | ⟨0, _⟩ => show win0_2.index t (0 : Fin 1) * 512 + 1 * (y 0).val = (i 0).val; omega

/-! ## What a point writes back -/

/-- The body's stored value at any entry of the tile, the entry given by its two coordinates. -/
theorem tile_entry_at (x0 : Vec Ideal S1024x2048 .f32) (x1 : Vec Ideal S512x2048 .f32) (x2 : Vec Ideal S512 .f32)
    (j : S1024x512.Idx) :
    k0_pay1 (F := Ideal) x0 x1 x2 j = (∑ k : Fin 2048, x0 (ix2 (j 0) k) * x1 (ix2 (j 1) k)) + x2 (ix1 (j 1)) := by
  obtain ⟨p, q, rfl⟩ : ∃ (p : Fin 1024) (q : Fin 512), j = ix2 p q := ⟨j 0, j 1, eq_ix2 j⟩
  exact Cert.Affine.Body.tile_entry x0 x1 x2 p q

/-- What grid point `t` writes back is its tile of the affine map of the argument arrays. -/
theorem flushed_eq (c : Dev nD) (t : Fin cfg0.N) :
    (dats m 0 c).flushed 3 t = ((cfg0.win 3).blk t).view.read (Elt Ideal)
      (Cert.Affine.affine (V m c main_arg0) (V m c main_arg1) (V m c main_arg2)) := by
  rw [Cert.KernelIdeal.Value.flushed3]
  unfold out0_3
  rw [View.canon_unit_zero zeros2]
  simp only [View.ld_unit_zero (S := S1024x2048) zeros2, View.ld_unit_zero (S := S512x2048) zeros2,
    View.ld_unit_zero (S := S512) zeros1]
  funext j
  show k0_pay1 (F := Ideal) (iblk m c 0 t) (iblk m c 1 t) (iblk m c 2 t) j
    = Cert.Affine.affine (V m c main_arg0) (V m c main_arg1) (V m c main_arg2) (((cfg0.win 3).blk t).view.emb j)
  refine (tile_entry_at (iblk m c 0 t) (iblk m c 1 t) (iblk m c 2 t) j).trans ?_
  have r0 : ((((cfg0.win 3).blk t).view.emb j) 0).val = win0_3.index t (0 : Fin 2) * 1024 + (j 0).val := by
    show win0_3.index t (0 : Fin 2) * 1024 + 1 * (j 0).val = _; omega
  have r1 : ((((cfg0.win 3).blk t).view.emb j) 1).val = win0_3.index t (1 : Fin 2) * 512 + (j 1).val := by
    show win0_3.index t (1 : Fin 2) * 512 + 1 * (j 1).val = _; omega
  unfold Cert.Affine.affine Cert.Affine.entry
  refine congrArg₂ (· + ·) (Finset.sum_congr rfl fun k _ => congrArg₂ (· * ·) ?_ ?_) ?_
  · exact xblock_apply m c t (ix2 (j 0) k) (ix2 ((((cfg0.win 3).blk t).view.emb j) 0) k) r0 rfl
  · exact wblock_apply m c t (ix2 (j 1) k) (ix2 ((((cfg0.win 3).blk t).view.emb j) 1) k) r1 rfl
  · exact bblock_apply m c t (ix1 (j 1)) (ix1 ((((cfg0.win 3).blk t).view.emb j) 1)) r1

/-! ## The tiles cover the result -/

/-- An index of the result is in point `t`'s tile iff each coordinate is in the tile's range on its axis. -/
theorem mem_tile (t : Fin cfg0.N) (i : S4096x2048.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Every index of the result lies in the tile of the point at (row / 1024, column / 512). -/
theorem covered (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := point_of_tile ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The result array and the run -/

/-- After the run the result array is the affine map of the argument arrays as launched. -/
theorem final (c : Dev nD) : (dats m 0 c).arrAt 3 cfg0.N
    = Cert.Affine.affine (m ((c : Thread nD τ).loc main_arg0)) (m ((c : Thread nD τ).loc main_arg1)) (m ((c : Thread nD τ).loc main_arg2)) :=
  (dats m 0 c).arrAt_eq_of_cover 3 (Cert.Affine.affine (V m c main_arg0) (V m c main_arg1) (V m c main_arg2))
    (fun t _ => flushed_eq m c t) covered

/-- The kernel's run, read: the result at the affine map of the arguments, the arguments unchanged. -/
theorem run : θ_run defs (onTc (τ := τ) (main (F := Ideal))) ⟨m, fun _ => 0, ρ⟩ fun r => ∀ c : Dev nD,
      r.2.mem ((c : Thread nD τ).loc main_v0)
        = Cert.Affine.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Affine.Tiles

end
-- ==== Proof.lean ====
/-
  A dense layer y = x·Wᵀ + b, for x : [4096, 2048], W : [2048, 2048], b : [2048].

  The kernel computes it tile by tile over a 4 × 4 grid: point (i, j) takes rows 1024·i … of x and rows 512·j … of W,
  narrows both to bf16, multiplies the first by the transpose of the second into a zero f32 accumulator, adds entries
  512·j … of b along every row, and writes the [1024, 512] tile at rows 1024·i …, columns 512·j … of the result.  The
  reference contracts the second axis of x with the second axis of W in one product and adds b broadcast over the rows.

  Over the extended reals a change of float format is the identity and a product into a zero accumulator is the plain
  sum of products, so entry (r, o) of either result is the sum over k of x[r, k]·W[o, k], plus b[o]: the same sum of
  the same products in the same order, with the same last addition.  No algebraic law beyond 0 + s = s is used, and
  the finiteness of the inputs is never needed.

  `Affine.lean` states that function; `RefAffine.lean` reads the reference's result as it; `BlockEntry.lean` reads one
  entry of what the kernel body stores; `TileArray.lean` identifies each tile written back with the matching part of
  the function and covers the result with the sixteen tiles.  Here the five claims are assembled: the three programs
  run and leave their arguments unchanged, the kernel's idealization rewrote no operation, and the two idealized
  programs end with the same result.
-/
import proofs.«142299_j21251498180715_1_alg».proof.Defs
import proofs.«142299_j21251498180715_1_alg».proof.Proof.Gen.Kernel
import proofs.«142299_j21251498180715_1_alg».proof.Proof.Gen.Kernel.Skeleton
import proofs.«142299_j21251498180715_1_alg».proof.Proof.Gen.Kernel.Launch
import proofs.«142299_j21251498180715_1_alg».proof.Proof.Gen.Kernel.Points
import proofs.«142299_j21251498180715_1_alg».proof.Proof.Gen.Kernel.Frame
import proofs.«142299_j21251498180715_1_alg».proof.Proof.Gen.KernelIdeal
import proofs.«142299_j21251498180715_1_alg».proof.Proof.Gen.KernelIdeal.Skeleton
import proofs.«142299_j21251498180715_1_alg».proof.Proof.Gen.KernelIdeal.Launch
import proofs.«142299_j21251498180715_1_alg».proof.Proof.Gen.KernelIdeal.Points
import proofs.«142299_j21251498180715_1_alg».proof.Proof.Gen.KernelIdeal.Frame
import proofs.«142299_j21251498180715_1_alg».proof.Proof.Gen.ReferenceIdeal
import proofs.«142299_j21251498180715_1_alg».proof.Proof.Gen.KernelIdeal.Value
import proofs.«142299_j21251498180715_1_alg».proof.Proof.Gen.ReferenceIdeal.Run
import proofs.«142299_j21251498180715_1_alg».proof.Proof.Gen.ReferenceIdeal.Read
import proofs.«142299_j21251498180715_1_alg».proof.Proof.Gen.Pre_finite_inputs
import proofs.«142299_j21251498180715_1_alg».proof.Proof.RefAffine
import proofs.«142299_j21251498180715_1_alg».proof.Proof.TileArray
import Idealize.ShloMosaic.Adequacy
import Idealize.ShloMosaic.Init

noncomputable section

namespace Cert.Proof

open Idealize.ShloMosaic Idealize.SL.Sem

/-- The kernel as printed runs and leaves x, W and b unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From arguments that agree, the idealized kernel and the idealized reference both end with the result at
    x·Wᵀ + b: the kernel by its sixteen tiles, the reference by its one product and its broadcast bias. -/
theorem algebraic : Cert.algebraic_KernelIdeal_ReferenceIdeal := by
  intro m ρ m' ρ' _ hagree
  refine ⟨_, Cert.Affine.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Affine.Ref.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
